-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S6400000 : Shape := ⟨1, ![6400000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S16x16 .f32) (main_arg7 : FVec F S16 .f32) (main_arg8 : FVec F S16x1 .f32) (main_arg9 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x1 .f32 := Host.absf main_arg8
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  fn_part2 (F := F) main_arg9 main_v33

def fn {F : FTy → Type} [FloatOps F] (main_arg0 : FVec F S200000x128 .f32) (main_arg1 : IVec S6400000 32) (main_arg2 : IVec S6400000 32) (main_arg3 : FVec F S6400000 .f32) (main_arg4 : FVec F S128x16 .f32) (main_arg5 : FVec F S16 .f32) (main_arg6 : FVec F S16x16 .f32) (main_arg7 : FVec F S16 .f32) (main_arg8 : FVec F S16x1 .f32) (main_arg9 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S6400000 .f32 := Host.absf main_arg3
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_v13 main_v16
-- ==== Kernel.lean ====
abbrev S200000x128 : Shape := ⟨2, ![200000, 128]⟩
abbrev S6400000 : Shape := ⟨1, ![6400000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S200000x16 : Shape := ⟨2, ![200000, 16]⟩
abbrev S5000x128 : Shape := ⟨2, ![5000, 128]⟩
abbrev S5000x16 : Shape := ⟨2, ![5000, 16]⟩
abbrev S_ : Shape := ⟨0, ![]⟩
abbrev S6400000x1 : Shape := ⟨2, ![6400000, 1]⟩
abbrev S6400000x16 : Shape := ⟨2, ![6400000, 16]⟩
abbrev S1x16 : Shape := ⟨2, ![1, 16]⟩
abbrev S1x1 : Shape := ⟨2, ![1, 1]⟩
abbrev S200000x1 : Shape := ⟨2, ![200000, 1]⟩
abbrev S5000x1 : Shape := ⟨2, ![5000, 1]⟩

abbrev nBuf : Space → Nat
  | .hbm => 48
  | .vmem => 18
  | .smem => 0
  | _ => 0

abbrev bufTy : (tb : Table) → Fin (tcTables nBuf tb) → BufTy
  | .hbm, ⟨0, _⟩ => ⟨S200000x128, .f32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S128x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S200000x16, .f32⟩
  | .hbm, ⟨11, _⟩ => ⟨S_, .i32⟩
  | .hbm, ⟨12, _⟩ => ⟨S6400000, .i32⟩
  | .hbm, ⟨13, _⟩ => ⟨S6400000, .i1⟩
  | .hbm, ⟨14, _⟩ => ⟨S_, .i32⟩
  | .hbm, ⟨15, _⟩ => ⟨S6400000, .i32⟩
  | .hbm, ⟨16, _⟩ => ⟨S6400000, .i32⟩
  | .hbm, ⟨17, _⟩ => ⟨S6400000, .i32⟩
  | .hbm, ⟨18, _⟩ => ⟨S6400000x1, .i32⟩
  | .hbm, ⟨19, _⟩ => ⟨S6400000x16, .f32⟩
  | .hbm, ⟨20, _⟩ => ⟨S6400000x1, .f32⟩
  | .hbm, ⟨21, _⟩ => ⟨S6400000x16, .f32⟩
  | .hbm, ⟨22, _⟩ => ⟨S6400000x16, .f32⟩
  | .hbm, ⟨23, _⟩ => ⟨S_, .f32⟩
  | .hbm, ⟨24, _⟩ => ⟨S200000x16, .f32⟩
  | .hbm, ⟨25, _⟩ => ⟨S6400000x1, .i32⟩
  | .hbm, ⟨26, _⟩ => ⟨S200000x16, .f32⟩
  | .hbm, ⟨27, _⟩ => ⟨S1x16, .f32⟩
  | .hbm, ⟨28, _⟩ => ⟨S200000x16, .f32⟩
  | .hbm, ⟨29, _⟩ => ⟨S_, .i32⟩
  | .hbm, ⟨30, _⟩ => ⟨S6400000, .i32⟩
  | .hbm, ⟨31, _⟩ => ⟨S6400000, .i1⟩
  | .hbm, ⟨32, _⟩ => ⟨S_, .i32⟩
  | .hbm, ⟨33, _⟩ => ⟨S6400000, .i32⟩
  | .hbm, ⟨34, _⟩ => ⟨S6400000, .i32⟩
  | .hbm, ⟨35, _⟩ => ⟨S6400000, .i32⟩
  | .hbm, ⟨36, _⟩ => ⟨S6400000x1, .i32⟩
  | .hbm, ⟨37, _⟩ => ⟨S6400000x16, .f32⟩
  | .hbm, ⟨38, _⟩ => ⟨S6400000x1, .f32⟩
  | .hbm, ⟨39, _⟩ => ⟨S6400000x16, .f32⟩
  | .hbm, ⟨40, _⟩ => ⟨S6400000x16, .f32⟩
  | .hbm, ⟨41, _⟩ => ⟨S_, .f32⟩
  | .hbm, ⟨42, _⟩ => ⟨S200000x16, .f32⟩
  | .hbm, ⟨43, _⟩ => ⟨S6400000x1, .i32⟩
  | .hbm, ⟨44, _⟩ => ⟨S200000x16, .f32⟩
  | .hbm, ⟨45, _⟩ => ⟨S1x16, .f32⟩
  | .hbm, ⟨46, _⟩ => ⟨S1x1, .f32⟩
  | .hbm, ⟨47, _⟩ => ⟨S200000x1, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S16x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x128_S128x16_S5000x16_1_0_0_1_n_n_wf : DotDims.WF S5000x128 S128x16 S5000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S5000x16_S16x16_S5000x16_1_0_0_1_n_n_wf : DotDims.WF S5000x16 S16x16 S5000x16 [1] [0] [0] [1] [] []
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S200000x16.size a
  hwx0_2 : ∀ i : grid0.Coords, EltTy.bits .f32 = 32 ∨ (Rect.block (s := S200000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S200000x16.size a
  hwx1_0 : ∀ i : grid1.Coords, EltTy.bits .f32 = 32 ∨ (Rect.block (s := S200000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S200000x16.size a
  hwx1_3 : ∀ i : grid1.Coords, EltTy.bits .f32 = 32 ∨ (Rect.block (s := S200000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S200000x16.size a
  hwx2_0 : ∀ i : grid2.Coords, EltTy.bits .f32 = 32 ∨ (Rect.block (s := S200000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S200000x1.size a
  hwx2_4 : ∀ i : grid2.Coords, EltTy.bits .f32 = 32 ∨ (Rect.block (s := S200000x1) S5000x1.size (cc2_transform_4 i) (hinb2_4 i)).WholeWords (EltTy.packing .f32)

variable [Facts₀]

def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S5000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S200000x128 : Shape := ⟨2, ![200000, 128]⟩
abbrev S6400000 : Shape := ⟨1, ![6400000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S200000x16 : Shape := ⟨2, ![200000, 16]⟩
abbrev S_ : Shape := ⟨0, ![]⟩
abbrev S6400000x1 : Shape := ⟨2, ![6400000, 1]⟩
abbrev S6400000x16 : Shape := ⟨2, ![6400000, 16]⟩
abbrev S1x16 : Shape := ⟨2, ![1, 16]⟩
abbrev S200000x1 : Shape := ⟨2, ![200000, 1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S128x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S200000x16, .f32⟩
  | .hbm, ⟨11, _⟩ => ⟨S_, .i32⟩
  | .hbm, ⟨12, _⟩ => ⟨S6400000, .i32⟩
  | .hbm, ⟨13, _⟩ => ⟨S6400000, .i1⟩
  | .hbm, ⟨14, _⟩ => ⟨S_, .i32⟩
  | .hbm, ⟨15, _⟩ => ⟨S6400000, .i32⟩
  | .hbm, ⟨16, _⟩ => ⟨S6400000, .i32⟩
  | .hbm, ⟨17, _⟩ => ⟨S6400000, .i32⟩
  | .hbm, ⟨18, _⟩ => ⟨S6400000x1, .i32⟩
  | .hbm, ⟨19, _⟩ => ⟨S6400000x16, .f32⟩
  | .hbm, ⟨20, _⟩ => ⟨S6400000x1, .f32⟩
  | .hbm, ⟨21, _⟩ => ⟨S6400000x16, .f32⟩
  | .hbm, ⟨22, _⟩ => ⟨S6400000x16, .f32⟩
  | .hbm, ⟨23, _⟩ => ⟨S_, .f32⟩
  | .hbm, ⟨24, _⟩ => ⟨S200000x16, .f32⟩
  | .hbm, ⟨25, _⟩ => ⟨S6400000x1, .i32⟩
  | .hbm, ⟨26, _⟩ => ⟨S200000x16, .f32⟩
  | .hbm, ⟨27, _⟩ => ⟨S1x16, .f32⟩
  | .hbm, ⟨28, _⟩ => ⟨S200000x16, .f32⟩
  | .hbm, ⟨29, _⟩ => ⟨S200000x16, .f32⟩
  | .hbm, ⟨30, _⟩ => ⟨S_, .f32⟩
  | .hbm, ⟨31, _⟩ => ⟨S200000x16, .f32⟩
  | .hbm, ⟨32, _⟩ => ⟨S200000x16, .f32⟩
  | .hbm, ⟨33, _⟩ => ⟨S200000x16, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S6400000x16, .f32⟩
  | .hbm, ⟨43, _⟩ => ⟨S6400000x1, .f32⟩
  | .hbm, ⟨44, _⟩ => ⟨S6400000x16, .f32⟩
  | .hbm, ⟨45, _⟩ => ⟨S6400000x16, .f32⟩
  | .hbm, ⟨46, _⟩ => ⟨S_, .f32⟩
  | .hbm, ⟨47, _⟩ => ⟨S200000x16, .f32⟩
  | .hbm, ⟨48, _⟩ => ⟨S6400000x1, .i32⟩
  | .hbm, ⟨49, _⟩ => ⟨S200000x16, .f32⟩
  | .hbm, ⟨50, _⟩ => ⟨S1x16, .f32⟩
  | .hbm, ⟨51, _⟩ => ⟨S200000x16, .f32⟩
  | .hbm, ⟨52, _⟩ => ⟨S200000x16, .f32⟩
  | .hbm, ⟨53, _⟩ => ⟨S_, .f32⟩
  | .hbm, ⟨54, _⟩ => ⟨S200000x16, .f32⟩
  | .hbm, ⟨55, _⟩ => ⟨S200000x16, .f32⟩
  | .hbm, ⟨56, _⟩ => ⟨S200000x1, .f32⟩
  | .hbm, ⟨57, _⟩ => ⟨S1x1, .f32⟩
  | .hbm, ⟨58, _⟩ => ⟨S200000x1, .f32⟩
  | .hbm, ⟨59, _⟩ => ⟨S200000x1, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x128_S128x16_S200000x16_1_0_0_1_n_n_wf : DotDims.WF S200000x128 S128x16 S200000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S200000x16_S16x16_S200000x16_1_0_0_1_n_n_wf : DotDims.WF S200000x16 S16x16 S200000x16 [1] [0] [0] [1] [] []
  dot_S200000x16_S16x1_S200000x1_1_0_0_1_n_n_wf : DotDims.WF S200000x16 S16x1 S200000x1 [1] [0] [0] [1] [] []

variable [Facts₀]

def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf

class Facts : Prop extends Facts₀ where

variable [Facts]
-- ==== Proof.KernelRun.lean ====
/-
  The idealized kernel program's run, with its result named.

  The program is three kernel regions among two stretches of array operations. The generated frame module folds the
  buffer contents through the five segments: `W5 m ρ c` is what core `c`'s buffers hold when the last region is left,
  a function of the launch memory `m`. Every weakly fair execution terminates, nothing faulting, with every buffer
  that is not scoped at those contents; so the result buffer ends at `W5 m ρ c` of its own name, and each argument
  array, which nothing writes, at its launch contents. What `W5` holds at the result buffer, as a function of the
  argument arrays, is read in the modules that follow this one.
-/
import proofs.«148713_j62491774157019_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v31 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Result

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibBiasReluRows.lean ====
/-
  A row of biases added to every row of an array, the positive part taken, and the product of the result with a
  matrix of weights: the dense half of a graph-convolution layer, on arrays of extended reals.

  For an array `a` of `R` rows and `K` columns, a one-row array `b` of `K` biases, weights `w` of `K` rows and
  `N` columns, and a one-row array `d` of `N` biases:
  * `reluRow a b` has entry `(r, k)` equal to `max (a (r, k) + b (0, k)) 0`;
  * `reluRowDense a b w` is the product rows by columns of `reluRow a b` with `w`: entry `(r, c)` is the sum over
    `k` of `max (a (r, k) + b (0, k)) 0 · w (k, c)`;
  * `reluRowHead a b w d` adds `d (0, c)` to that entry.

  Each of the three is computed row by row: row `r` of the result reads row `r` of `a` only, beside the whole of
  `b`, `w` and `d`. So a block of rows of `a` gives the same block of rows of the result (`…_rows`), which is
  what lets the map be computed one block of rows at a time. Two spellings of each map are identified with it: the one
  a vector unit computes from a block (casts of the block to its own shape, the bias row repeated along the rows, a
  maximum with the zero scalar, a narrowing of the format, the matrix unit's product into a zero accumulator) and the
  one array operations on whole arrays compute (a vector of biases laid out as one row and repeated, a maximum with an
  array of zeros, a general dot product). Nothing here needs an entry to be finite: sums, products and maxima of
  extended reals are formed, and no sum is rearranged against a product.
-/
import Idealize.ShloMosaic.Lib.Pipeline.Value
import Idealize.ShloMosaic.Lib.ValueIdx
import Idealize.ShloMosaic.Lib.ValueLayout
import Idealize.ShloMosaic.PureOps.Ideal.Laws
import proofs.«148713_j62491774157019_2_alg».proof.Proof.LibPlainProduct

noncomputable section

open scoped BigOperators

namespace Cert.BiasReluRows

open Idealize.ShloMosaic Idealize.ShloMosaic.ValueIdx Idealize.ShloMosaic.PlainProduct

variable {R B K N : ℕ}

/-- The zero of single precision, as the programs spell it. -/
abbrev zero32 : Ideal .f32 := FloatOps.ofBits .f32 0x00000000#32

/-- A vector of length `k` as the one-row array `[1, k]`. -/
def rowOf {k : ℕ} (b : FVec Ideal ⟨1, ![k]⟩ .f32) : FVec Ideal ⟨2, ![1, k]⟩ .f32 := fun i => b (ix1 (n := k) (i 1))

/-- The bias row added to every row, then the positive part: entry `(r, k)` is `max (a (r, k) + b (0, k)) 0`. -/
def reluRow (a : FVec Ideal ⟨2, ![R, K]⟩ .f32) (b : FVec Ideal ⟨2, ![1, K]⟩ .f32) : FVec Ideal ⟨2, ![R, K]⟩ .f32 :=
  fun j => max (a j + b (ix2 (n0 := 1) (n1 := K) 0 (j 1))) zero32

/-- `reluRow a b` times the weights: entry `(r, c)` is `∑ k, max (a (r, k) + b (0, k)) 0 · w (k, c)`. -/
def reluRowDense (a : FVec Ideal ⟨2, ![R, K]⟩ .f32) (b : FVec Ideal ⟨2, ![1, K]⟩ .f32) (w : FVec Ideal ⟨2, ![K, N]⟩ .f32) :
    FVec Ideal ⟨2, ![R, N]⟩ .f32 :=
  rowsByCols (reluRow a b) w

/-- … plus a second bias row: entry `(r, c)` is `∑ k, max (a (r, k) + b (0, k)) 0 · w (k, c) + d (0, c)`. -/
def reluRowHead (a : FVec Ideal ⟨2, ![R, K]⟩ .f32) (b : FVec Ideal ⟨2, ![1, K]⟩ .f32) (w : FVec Ideal ⟨2, ![K, N]⟩ .f32)
    (d : FVec Ideal ⟨2, ![1, N]⟩ .f32) : FVec Ideal ⟨2, ![R, N]⟩ .f32 :=
  fun j => rowsByCols (reluRow a b) w j + d (ix2 (n0 := 1) (n1 := N) 0 (j 1))

/-! ## What a vector unit computes from a block -/

/-- The block and the bias row cast to their own shapes, the row repeated along the rows and added, the maximum
    with the zero scalar repeated over the block: `reluRow`. -/
theorem block_reluRow (a : FVec Ideal ⟨2, ![R, K]⟩ .f32) (b : FVec Ideal ⟨2, ![1, K]⟩ .f32)
    (h0 : (⟨2, ![R, K]⟩ : Shape).ShapeCasts ⟨2, ![R, K]⟩) (h1 : (⟨2, ![1, K]⟩ : Shape).ShapeCasts ⟨2, ![1, K]⟩)
    (h2 : (⟨2, ![1, K]⟩ : Shape).Broadcasts ⟨2, ![R, K]⟩) :
    maximumf (addf (shapeCast ⟨2, ![R, K]⟩ a h0) (broadcastTo ⟨2, ![R, K]⟩ (shapeCast ⟨2, ![1, K]⟩ b h1) h2))
        (broadcast ⟨2, ![R, K]⟩ (Scalar.ofBits (F := Ideal) .f32 0x00000000#32)) = reluRow a b := by
  funext j
  obtain ⟨p, q, rfl⟩ : ∃ (p : Fin R) (q : Fin K), j = ix2 p q := ⟨j 0, j 1, eq_ix2 j⟩
  rw [shapeCast_self, shapeCast_self, maximumf_apply, addf_apply, broadcastTo_1b_ab_apply]
  rfl

/-- A matrix unit's product of two operands, their format narrowed (which changes nothing on the extended reals),
    into the zero accumulator: the product rows by columns. -/
theorem block_product (x : FVec Ideal ⟨2, ![R, K]⟩ .f32) (w : FVec Ideal ⟨2, ![K, N]⟩ .f32) (hb : FTy.bf16.bits < FTy.f32.bits) :
    matmul (DotDims.plain R K N) none (truncf .bf16 x hb) (truncf .bf16 w hb) (constant ⟨2, ![R, N]⟩ .f32 0x00000000#32)
      = rowsByCols x w :=
  matmul_zero_plain none (truncf .bf16 x hb) (truncf .bf16 w hb)

/-- The same product of `reluRow` of the block, as the vector unit spells it: `reluRowDense`. -/
theorem block_reluRowDense (a : FVec Ideal ⟨2, ![R, K]⟩ .f32) (b : FVec Ideal ⟨2, ![1, K]⟩ .f32) (w : FVec Ideal ⟨2, ![K, N]⟩ .f32)
    (h0 : (⟨2, ![R, K]⟩ : Shape).ShapeCasts ⟨2, ![R, K]⟩) (h1 : (⟨2, ![1, K]⟩ : Shape).ShapeCasts ⟨2, ![1, K]⟩)
    (h2 : (⟨2, ![1, K]⟩ : Shape).Broadcasts ⟨2, ![R, K]⟩) (hb : FTy.bf16.bits < FTy.f32.bits) :
    matmul (DotDims.plain R K N) none
        (truncf .bf16 (maximumf (addf (shapeCast ⟨2, ![R, K]⟩ a h0) (broadcastTo ⟨2, ![R, K]⟩ (shapeCast ⟨2, ![1, K]⟩ b h1) h2))
          (broadcast ⟨2, ![R, K]⟩ (Scalar.ofBits (F := Ideal) .f32 0x00000000#32))) hb)
        (truncf .bf16 w hb) (constant ⟨2, ![R, N]⟩ .f32 0x00000000#32)
      = reluRowDense a b w := by
  rw [block_reluRow]
  exact block_product (reluRow a b) w hb

/-- … with the second bias row, cast to its own shape and repeated along the rows, added: `reluRowHead`. -/
theorem block_reluRowHead (a : FVec Ideal ⟨2, ![R, K]⟩ .f32) (b : FVec Ideal ⟨2, ![1, K]⟩ .f32) (w : FVec Ideal ⟨2, ![K, N]⟩ .f32)
    (d : FVec Ideal ⟨2, ![1, N]⟩ .f32)
    (h0 : (⟨2, ![R, K]⟩ : Shape).ShapeCasts ⟨2, ![R, K]⟩) (h1 : (⟨2, ![1, K]⟩ : Shape).ShapeCasts ⟨2, ![1, K]⟩)
    (h2 : (⟨2, ![1, K]⟩ : Shape).Broadcasts ⟨2, ![R, K]⟩) (hb : FTy.bf16.bits < FTy.f32.bits)
    (h3 : (⟨2, ![1, N]⟩ : Shape).ShapeCasts ⟨2, ![1, N]⟩) (h4 : (⟨2, ![1, N]⟩ : Shape).Broadcasts ⟨2, ![R, N]⟩) :
    addf (matmul (DotDims.plain R K N) none
        (truncf .bf16 (maximumf (addf (shapeCast ⟨2, ![R, K]⟩ a h0) (broadcastTo ⟨2, ![R, K]⟩ (shapeCast ⟨2, ![1, K]⟩ b h1) h2))
          (broadcast ⟨2, ![R, K]⟩ (Scalar.ofBits (F := Ideal) .f32 0x00000000#32))) hb)
        (truncf .bf16 w hb) (constant ⟨2, ![R, N]⟩ .f32 0x00000000#32))
      (broadcastTo ⟨2, ![R, N]⟩ (shapeCast ⟨2, ![1, N]⟩ d h3) h4)
      = reluRowHead a b w d := by
  rw [block_reluRowDense]
  funext j
  obtain ⟨p, q, rfl⟩ : ∃ (p : Fin R) (q : Fin N), j = ix2 p q := ⟨j 0, j 1, eq_ix2 j⟩
  rw [shapeCast_self, addf_apply, broadcastTo_1b_ab_apply]
  rfl

/-! ## Row blocks -/

section Rows

variable (e : Fin B → Fin R)

/-- Rows `e r` of `reluRow a b` are `reluRow` of rows `e r` of `a`. -/
theorem reluRow_rows (a : FVec Ideal ⟨2, ![R, K]⟩ .f32) (b : FVec Ideal ⟨2, ![1, K]⟩ .f32) (ab : FVec Ideal ⟨2, ![B, K]⟩ .f32)
    (ha : ∀ (r : Fin B) (k : Fin K), ab (ix2 (n0 := B) (n1 := K) r k) = a (ix2 (n0 := R) (n1 := K) (e r) k))
    (r : Fin B) (k : Fin K) :
    reluRow ab b (ix2 (n0 := B) (n1 := K) r k) = reluRow a b (ix2 (n0 := R) (n1 := K) (e r) k) :=
  congrArg (fun v => max (v + b (ix2 (n0 := 1) (n1 := K) 0 k)) zero32) (ha r k)

/-- Rows `e r` of `reluRowDense a b w` are `reluRowDense` of rows `e r` of `a`. -/
theorem reluRowDense_rows (a : FVec Ideal ⟨2, ![R, K]⟩ .f32) (b : FVec Ideal ⟨2, ![1, K]⟩ .f32) (w : FVec Ideal ⟨2, ![K, N]⟩ .f32)
    (ab : FVec Ideal ⟨2, ![B, K]⟩ .f32)
    (ha : ∀ (r : Fin B) (k : Fin K), ab (ix2 (n0 := B) (n1 := K) r k) = a (ix2 (n0 := R) (n1 := K) (e r) k))
    (j : (⟨2, ![B, N]⟩ : Shape).Idx) :
    reluRowDense ab b w j = reluRowDense a b w (ix2 (n0 := R) (n1 := N) (e (j 0)) (j 1)) :=
  rowsByCols_rows (reluRow a b) w (reluRow ab b) e (reluRow_rows e a b ab ha) j

/-- Rows `e r` of `reluRowHead a b w d` are `reluRowHead` of rows `e r` of `a`. -/
theorem reluRowHead_rows (a : FVec Ideal ⟨2, ![R, K]⟩ .f32) (b : FVec Ideal ⟨2, ![1, K]⟩ .f32) (w : FVec Ideal ⟨2, ![K, N]⟩ .f32)
    (d : FVec Ideal ⟨2, ![1, N]⟩ .f32) (ab : FVec Ideal ⟨2, ![B, K]⟩ .f32)
    (ha : ∀ (r : Fin B) (k : Fin K), ab (ix2 (n0 := B) (n1 := K) r k) = a (ix2 (n0 := R) (n1 := K) (e r) k))
    (j : (⟨2, ![B, N]⟩ : Shape).Idx) :
    reluRowHead ab b w d j = reluRowHead a b w d (ix2 (n0 := R) (n1 := N) (e (j 0)) (j 1)) :=
  congrArg (· + d (ix2 (n0 := 1) (n1 := N) 0 (j 1))) (reluRowDense_rows e a b w ab ha j)

end Rows

/-! ## What array operations on whole arrays compute -/

/-- A vector cast to one row is `rowOf` of it. -/
theorem cast_rowOf {k : ℕ} (b : FVec Ideal ⟨1, ![k]⟩ .f32) (h : (⟨1, ![k]⟩ : Shape).ShapeCasts ⟨2, ![1, k]⟩) :
    shapeCast ⟨2, ![1, k]⟩ b h = rowOf b := by
  funext j
  obtain ⟨u, q, rfl⟩ : ∃ (u : Fin 1) (q : Fin k), j = ix2 u q := ⟨j 0, j 1, eq_ix2 j⟩
  exact shapeCast_a_1a_apply b h u q

/-- A vector laid out along the second axis of a one-row array is `rowOf` of it. -/
theorem bcast_rowOf {k : ℕ} (b : FVec Ideal ⟨1, ![k]⟩ .f32) (h : (⟨1, ![k]⟩ : Shape).BroadcastsInDim ⟨2, ![1, k]⟩ ![1]) :
    broadcastInDim ⟨2, ![1, k]⟩ ![1] h b = rowOf b := by
  funext j
  obtain ⟨u, q, rfl⟩ : ∃ (u : Fin 1) (q : Fin k), j = ix2 u q := ⟨j 0, j 1, eq_ix2 j⟩
  refine broadcastInDim_apply _ h b (ix2 u q) (ix1 q) fun ax => ?_
  match ax with
  | ⟨0, _⟩ =>
    show q.val = if k = 1 then 0 else q.val
    split
    · have := q.isLt; omega
    · rfl

/-- A one-row array repeated over `r` rows reads, at `(p, q)`, its entry `(0, q)`. -/
theorem bcast_rows_apply {α : Type} {r k : ℕ} (v : (⟨2, ![1, k]⟩ : Shape).Idx → α)
    (h : (⟨2, ![1, k]⟩ : Shape).BroadcastsInDim ⟨2, ![r, k]⟩ ![0, 1]) (p : Fin r) (q : Fin k) :
    broadcastInDim ⟨2, ![r, k]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if k = 1 then 0 else q.val
    split
    · have := q.isLt; omega
    · rfl

/-- The bias row repeated over the rows and added, the maximum with the array of zeros: `reluRow`. -/
theorem host_reluRow (a : FVec Ideal ⟨2, ![R, K]⟩ .f32) (b : FVec Ideal ⟨2, ![1, K]⟩ .f32)
    (h2 : (⟨2, ![1, K]⟩ : Shape).BroadcastsInDim ⟨2, ![R, K]⟩ ![0, 1])
    (h0 : (⟨0, ![]⟩ : Shape).BroadcastsInDim ⟨2, ![R, K]⟩ ![]) :
    maximumf (addf a (broadcastInDim ⟨2, ![R, K]⟩ ![0, 1] h2 b))
        (broadcastInDim ⟨2, ![R, K]⟩ ![] h0 (constant (F := Ideal) ⟨0, ![]⟩ .f32 0x00000000#32)) = reluRow a b := by
  funext j
  obtain ⟨p, q, rfl⟩ : ∃ (p : Fin R) (q : Fin K), j = ix2 p q := ⟨j 0, j 1, eq_ix2 j⟩
  rw [maximumf_apply, addf_apply, bcast_rows_apply,
    broadcastInDim_apply _ h0 (constant (F := Ideal) ⟨0, ![]⟩ .f32 0x00000000#32) (ix2 p q) ix0 (fun ax => ax.elim0)]
  rfl

/-- The general dot product of that with the weights: `reluRowDense`. -/
theorem host_reluRowDense (a : FVec Ideal ⟨2, ![R, K]⟩ .f32) (b : FVec Ideal ⟨2, ![1, K]⟩ .f32) (w : FVec Ideal ⟨2, ![K, N]⟩ .f32)
    (h2 : (⟨2, ![1, K]⟩ : Shape).BroadcastsInDim ⟨2, ![R, K]⟩ ![0, 1])
    (h0 : (⟨0, ![]⟩ : Shape).BroadcastsInDim ⟨2, ![R, K]⟩ ![]) :
    Host.dotGeneral (DotDims.plain R K N) none
        (maximumf (addf a (broadcastInDim ⟨2, ![R, K]⟩ ![0, 1] h2 b))
          (broadcastInDim ⟨2, ![R, K]⟩ ![] h0 (constant (F := Ideal) ⟨0, ![]⟩ .f32 0x00000000#32))) w
      = reluRowDense a b w := by
  rw [host_reluRow]
  exact dotGeneral_plain none .single (reluRow a b) w

/-- … with the second bias row repeated over the rows and added: `reluRowHead`. -/
theorem host_reluRowHead (a : FVec Ideal ⟨2, ![R, K]⟩ .f32) (b : FVec Ideal ⟨2, ![1, K]⟩ .f32) (w : FVec Ideal ⟨2, ![K, N]⟩ .f32)
    (d : FVec Ideal ⟨2, ![1, N]⟩ .f32)
    (h2 : (⟨2, ![1, K]⟩ : Shape).BroadcastsInDim ⟨2, ![R, K]⟩ ![0, 1])
    (h0 : (⟨0, ![]⟩ : Shape).BroadcastsInDim ⟨2, ![R, K]⟩ ![])
    (h4 : (⟨2, ![1, N]⟩ : Shape).BroadcastsInDim ⟨2, ![R, N]⟩ ![0, 1]) :
    addf (Host.dotGeneral (DotDims.plain R K N) none
        (maximumf (addf a (broadcastInDim ⟨2, ![R, K]⟩ ![0, 1] h2 b))
          (broadcastInDim ⟨2, ![R, K]⟩ ![] h0 (constant (F := Ideal) ⟨0, ![]⟩ .f32 0x00000000#32))) w)
      (broadcastInDim ⟨2, ![R, N]⟩ ![0, 1] h4 d)
      = reluRowHead a b w d := by
  rw [host_reluRowDense]
  funext j
  obtain ⟨p, q, rfl⟩ : ∃ (p : Fin R) (q : Fin N), j = ix2 p q := ⟨j 0, j 1, eq_ix2 j⟩
  rw [addf_apply, bcast_rows_apply]
  rfl

end Cert.BiasReluRows

end
-- ==== Proof.Region1.lean ====
/-
  What the second kernel region leaves in its output array: the bias row added to the aggregated rows, the positive
  part, times the weights.

  The region runs over 40 grid points. At point `t` it is handed rows `5000·t … 5000·t + 4999` of the 200000 × 16
  array of aggregates, the whole one-row array of 16 biases and the whole 16 × 16 array of weights; it adds the bias
  row to every row of the block, takes the maximum with zero, multiplies by the weights into a zero accumulator, and
  writes the 5000 × 16 result back as the same rows of the output. Row `r` of that map reads row `r` of the aggregates
  only, so what point `t` writes back is that block of rows of the map applied to the whole array; the 40 blocks tile
  the output, so the output array ends holding the map of the whole array. Stated at an arbitrary assignment `V` of
  contents to the buffers at the region's entry.
-/
import proofs.«148713_j62491774157019_2_alg».proof.Proof.Gen.KernelIdeal.Frame
import proofs.«148713_j62491774157019_2_alg».proof.Proof.LibBiasReluRows
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.ValueIdx Idealize.ShloMosaic.PlainProduct Cert.BiasReluRows
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's result as a function of its three input arrays: entry `(r, c)` is
    `∑ k, max (a (r, k) + b (0, k)) 0 · w (k, c)`. -/
abbrev layer (a : FVec Ideal S200000x16 .f32) (b : FVec Ideal S1x16 .f32) (w : FVec Ideal S16x16 .f32) : FVec Ideal S200000x16 .f32 :=
  reluRowDense (R := 200000) (K := 16) (N := 16) a b w

/-- The body's dimension numbers are the plain ones: the left operand's columns against the right operand's rows. -/
theorem dims_plain : dot_S5000x16_S16x16_S5000x16_1_0_0_1_n_n = DotDims.plain 5000 16 16 := rfl

/-- What the body stores, from the three blocks it loads. -/
theorem stored_eq (x0 : FVec Ideal S5000x16 .f32) (x1 : FVec Ideal S1x16 .f32) (x2 : FVec Ideal S16x16 .f32) :
    k1_pay1 (F := Ideal) x0 x1 x2 = reluRowDense (R := 5000) (K := 16) (N := 16) x0 x1 x2 := by
  unfold k1_pay1
  rw [dims_plain]
  exact block_reluRowDense x0 x1 x2 _ _ _ _

/-- The printed index maps, decided over the grid: the row-block index of the aggregates and of the output is the
    point's number, every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 40 := Nat.lt_of_lt_of_eq t.isLt N_1

/-- Row `r` of point `t`'s block is row `5000·t + r` of the array. -/
def rowAt (t : Fin cfg1.N) (r : Fin 5000) : Fin 200000 := ⟨5000 * t.val + r.val, by have := point_lt t; have := r.isLt; omega⟩

/-- The aggregates' block at point `t` holds rows `5000·t + r` of the array. -/
theorem block_a (c : Dev nD) (t : Fin cfg1.N) (r : Fin 5000) (k : Fin 16) :
    (iblk1 V c 0 t : FVec Ideal S5000x16 .f32) (ix2 r k) = (V c main_v13 : FVec Ideal S200000x16 .f32) (ix2 (rowAt t r) k) := by
  obtain ⟨e0, e1, -, -, -, -, -, -⟩ := idx_facts t
  unfold iblk1
  rw [View.read_apply]
  show V c main_v13 _ = V c main_v13 _
  refine congrArg (V c main_v13) ?_
  funext a
  apply Fin.ext
  match a with
  | ⟨0, _⟩ => show win1_0.index t (0 : Fin 2) * 5000 + 1 * r.val = 5000 * t.val + r.val; rw [e0]; omega
  | ⟨1, _⟩ => show win1_0.index t (1 : Fin 2) * 16 + 1 * k.val = k.val; rw [e1]; omega

/-- The bias row's block at any point is the whole one-row array. -/
theorem block_b (c : Dev nD) (t : Fin cfg1.N) :
    (iblk1 V c 1 t : FVec Ideal S1x16 .f32) = (V c main_v14 : FVec Ideal S1x16 .f32) := by
  obtain ⟨-, -, e2, e3, -, -, -, -⟩ := idx_facts t
  funext y
  unfold iblk1
  rw [View.read_apply]
  show V c main_v14 _ = V c main_v14 _
  refine congrArg (V c main_v14) ?_
  funext a
  apply Fin.ext
  match a with
  | ⟨0, _⟩ => show win1_1.index t (0 : Fin 2) * 1 + 1 * (y 0).val = (y 0).val; rw [e2]; omega
  | ⟨1, _⟩ => show win1_1.index t (1 : Fin 2) * 16 + 1 * (y 1).val = (y 1).val; rw [e3]; omega

/-- The weights' block at any point is the whole array. -/
theorem block_w (c : Dev nD) (t : Fin cfg1.N) :
    (iblk1 V c 2 t : FVec Ideal S16x16 .f32) = (V c main_arg6 : FVec Ideal S16x16 .f32) := by
  obtain ⟨-, -, -, -, e4, e5, -, -⟩ := idx_facts t
  funext y
  unfold iblk1
  rw [View.read_apply]
  show V c main_arg6 _ = V c main_arg6 _
  refine congrArg (V c main_arg6) ?_
  funext a
  apply Fin.ext
  match a with
  | ⟨0, _⟩ => show win1_2.index t (0 : Fin 2) * 16 + 1 * (y 0).val = (y 0).val; rw [e4]; omega
  | ⟨1, _⟩ => show win1_2.index t (1 : Fin 2) * 16 + 1 * (y 1).val = (y 1).val; rw [e5]; omega

/-- What point `t` writes back is block `t` of the map of the arrays as the region finds them. -/
theorem flushed_eq (c : Dev nD) (t : Fin cfg1.N) :
    (dat1 V c).flushed 3 t = ((cfg1.win 3).blk t).view.read (Elt Ideal) (layer (V c main_v13) (V c main_v14) (V c main_arg6)) := by
  show (cfg1.win 3).cut (grid1.coords t) ((dat1 V c).after 3 t) = _
  rw [after1_3]
  unfold out1_3
  rw [View.canon_unit_zero hz]
  simp only [View.ld_unit_zero (S := S5000x16) hz, View.ld_unit_zero (S := S1x16) hz, View.ld_unit_zero (S := S16x16) hz]
  obtain ⟨-, -, -, -, -, -, e6, e7⟩ := idx_facts t
  funext j
  show k1_pay1 (F := Ideal) (iblk1 V c 0 t) (iblk1 V c 1 t) (iblk1 V c 2 t) j
    = reluRowDense (R := 200000) (K := 16) (N := 16) (V c main_v13) (V c main_v14) (V c main_arg6) (((cfg1.win 3).blk t).view.emb j)
  refine (congrFun (stored_eq (iblk1 V c 0 t) (iblk1 V c 1 t) (iblk1 V c 2 t)) j).trans ?_
  rw [block_b V c t, block_w V c t]
  refine (reluRowDense_rows (R := 200000) (K := 16) (N := 16) (B := 5000) (rowAt t) (V c main_v13) (V c main_v14) (V c main_arg6)
    (iblk1 V c 0 t) (block_a V c t) j).trans
    (congrArg (reluRowDense (R := 200000) (K := 16) (N := 16) (V c main_v13) (V c main_v14) (V c main_arg6)) ?_)
  funext a
  apply Fin.ext
  match a with
  | ⟨0, _⟩ => show 5000 * t.val + (j 0).val = win1_3.index t (0 : Fin 2) * 5000 + 1 * (j 0).val; rw [e6]; omega
  | ⟨1, _⟩ => show (j 1).val = win1_3.index t (1 : Fin 2) * 16 + 1 * (j 1).val; rw [e7]; omega

/-- An index of the output array is in point `t`'s block iff each coordinate is in the block's range on its axis. -/
theorem mem_blk (t : Fin cfg1.N) (i : S200000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v15).slice (win1_3.rect t)).set ↔ _
  rw [View.set_slice_whole, Rect.mem_set_unit]
  exact Iff.rfl

/-- Every index of the output array is in the block of the point numbered by its row divided by 5000. -/
theorem cover (i : S200000x16.Idx) : ∃ t : Fin cfg1.N, (cfg1.win 3).flush t = true ∧ i ∈ ((cfg1.win 3).blk t).view.set := by
  have hi0 : (i 0).val < 200000 := (i 0).isLt
  have hi1 : (i 1).val < 16 := (i 1).isLt
  have hN : cfg1.N = 40 := N_1
  obtain ⟨t, ht⟩ : ∃ t : Fin cfg1.N, t.val = (i 0).val / 5000 := ⟨⟨(i 0).val / 5000, by rw [hN]; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 16 ≤ (i 1).val ∧ (i 1).val < win1_3.index t (1 : Fin 2) * 16 + 16; rw [e7]; omega

/-- The output array after the region: the map of the three input arrays as the region finds them. -/
theorem final (c : Dev nD) : (dat1 V c).arrAt 3 cfg1.N = layer (V c main_v13) (V c main_v14) (V c main_arg6) :=
  (dat1 V c).arrAt_eq_of_cover 3 (layer (V c main_v13) (V c main_v14) (V c main_arg6)) (fun t _ => flushed_eq V c t) cover

end Cert.KernelIdeal.Region1

end
-- ==== Proof.Region2.lean ====
/-
  What the third kernel region leaves in its output array: the bias row added to the aggregated rows, the positive
  part, times the one column of weights, plus the last bias.

  The region runs over 40 grid points. At point `t` it is handed rows `5000·t … 5000·t + 4999` of the 200000 × 16
  array of aggregates, the whole one-row array of 16 biases, the whole 16 × 1 array of weights and the whole 1 × 1
  array holding the last bias; it adds the bias row to every row of the block, takes the maximum with zero, multiplies
  by the weights into a zero accumulator, adds the last bias, and writes the 5000 × 1 result back as the same rows of
  the output. Row `r` of that map reads row `r` of the aggregates only, so what point `t` writes back is that block of
  rows of the map applied to the whole array; the 40 blocks tile the output, so the output array ends holding the map of
  the whole array. Stated at an arbitrary assignment `V` of contents to the buffers at the region's entry.
-/
import proofs.«148713_j62491774157019_2_alg».proof.Proof.Gen.KernelIdeal.Frame
import proofs.«148713_j62491774157019_2_alg».proof.Proof.LibBiasReluRows
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.ValueIdx Idealize.ShloMosaic.PlainProduct Cert.BiasReluRows
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's result as a function of its four input arrays: entry `(r, 0)` is
    `∑ k, max (a (r, k) + b (0, k)) 0 · w (k, 0) + d (0, 0)`. -/
abbrev head (a : FVec Ideal S200000x16 .f32) (b : FVec Ideal S1x16 .f32) (w : FVec Ideal S16x1 .f32) (d : FVec Ideal S1x1 .f32) :
    FVec Ideal S200000x1 .f32 :=
  reluRowHead (R := 200000) (K := 16) (N := 1) a b w d

/-- The body's dimension numbers are the plain ones: the left operand's columns against the right operand's rows. -/
theorem dims_plain : dot_S5000x16_S16x1_S5000x1_1_0_0_1_n_n = DotDims.plain 5000 16 1 := rfl

/-- What the body stores, from the four blocks it loads. -/
theorem stored_eq (x0 : FVec Ideal S5000x16 .f32) (x1 : FVec Ideal S1x16 .f32) (x2 : FVec Ideal S16x1 .f32) (x3 : FVec Ideal S1x1 .f32) :
    k2_pay1 (F := Ideal) x0 x1 x2 x3 = reluRowHead (R := 5000) (K := 16) (N := 1) x0 x1 x2 x3 := by
  unfold k2_pay1
  rw [dims_plain]
  exact block_reluRowHead x0 x1 x2 x3 _ _ _ _ _ _

/-- The printed index maps, decided over the grid: the row-block index of the aggregates and of the output is the
    point's number, every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem point_lt (t : Fin cfg2.N) : t.val < 40 := Nat.lt_of_lt_of_eq t.isLt N_2

/-- Row `r` of point `t`'s block is row `5000·t + r` of the array. -/
def rowAt (t : Fin cfg2.N) (r : Fin 5000) : Fin 200000 := ⟨5000 * t.val + r.val, by have := point_lt t; have := r.isLt; omega⟩

/-- The aggregates' block at point `t` holds rows `5000·t + r` of the array. -/
theorem block_a (c : Dev nD) (t : Fin cfg2.N) (r : Fin 5000) (k : Fin 16) :
    (iblk2 V c 0 t : FVec Ideal S5000x16 .f32) (ix2 r k) = (V c main_v28 : FVec Ideal S200000x16 .f32) (ix2 (rowAt t r) k) := by
  obtain ⟨e0, e1, -, -, -, -, -, -, -, -⟩ := idx_facts t
  unfold iblk2
  rw [View.read_apply]
  show V c main_v28 _ = V c main_v28 _
  refine congrArg (V c main_v28) ?_
  funext a
  apply Fin.ext
  match a with
  | ⟨0, _⟩ => show win2_0.index t (0 : Fin 2) * 5000 + 1 * r.val = 5000 * t.val + r.val; rw [e0]; omega
  | ⟨1, _⟩ => show win2_0.index t (1 : Fin 2) * 16 + 1 * k.val = k.val; rw [e1]; omega

/-- The bias row's block at any point is the whole one-row array. -/
theorem block_b (c : Dev nD) (t : Fin cfg2.N) :
    (iblk2 V c 1 t : FVec Ideal S1x16 .f32) = (V c main_v29 : FVec Ideal S1x16 .f32) := by
  obtain ⟨-, -, e2, e3, -, -, -, -, -, -⟩ := idx_facts t
  funext y
  unfold iblk2
  rw [View.read_apply]
  show V c main_v29 _ = V c main_v29 _
  refine congrArg (V c main_v29) ?_
  funext a
  apply Fin.ext
  match a with
  | ⟨0, _⟩ => show win2_1.index t (0 : Fin 2) * 1 + 1 * (y 0).val = (y 0).val; rw [e2]; omega
  | ⟨1, _⟩ => show win2_1.index t (1 : Fin 2) * 16 + 1 * (y 1).val = (y 1).val; rw [e3]; omega

/-- The weights' block at any point is the whole array. -/
theorem block_w (c : Dev nD) (t : Fin cfg2.N) :
    (iblk2 V c 2 t : FVec Ideal S16x1 .f32) = (V c main_arg8 : FVec Ideal S16x1 .f32) := by
  obtain ⟨-, -, -, -, e4, e5, -, -, -, -⟩ := idx_facts t
  funext y
  unfold iblk2
  rw [View.read_apply]
  show V c main_arg8 _ = V c main_arg8 _
  refine congrArg (V c main_arg8) ?_
  funext a
  apply Fin.ext
  match a with
  | ⟨0, _⟩ => show win2_2.index t (0 : Fin 2) * 16 + 1 * (y 0).val = (y 0).val; rw [e4]; omega
  | ⟨1, _⟩ => show win2_2.index t (1 : Fin 2) * 1 + 1 * (y 1).val = (y 1).val; rw [e5]; omega

/-- The last bias's block at any point is the whole 1 × 1 array. -/
theorem block_d (c : Dev nD) (t : Fin cfg2.N) :
    (iblk2 V c 3 t : FVec Ideal S1x1 .f32) = (V c main_v30 : FVec Ideal S1x1 .f32) := by
  obtain ⟨-, -, -, -, -, -, e6, e7, -, -⟩ := idx_facts t
  funext y
  unfold iblk2
  rw [View.read_apply]
  show V c main_v30 _ = V c main_v30 _
  refine congrArg (V c main_v30) ?_
  funext a
  apply Fin.ext
  match a with
  | ⟨0, _⟩ => show win2_3.index t (0 : Fin 2) * 1 + 1 * (y 0).val = (y 0).val; rw [e6]; omega
  | ⟨1, _⟩ => show win2_3.index t (1 : Fin 2) * 1 + 1 * (y 1).val = (y 1).val; rw [e7]; omega

/-- What point `t` writes back is block `t` of the map of the arrays as the region finds them. -/
theorem flushed_eq (c : Dev nD) (t : Fin cfg2.N) :
    (dat2 V c).flushed 4 t = ((cfg2.win 4).blk t).view.read (Elt Ideal) (head (V c main_v28) (V c main_v29) (V c main_arg8) (V c main_v30)) := by
  show (cfg2.win 4).cut (grid2.coords t) ((dat2 V c).after 4 t) = _
  rw [after2_4]
  unfold out2_4
  rw [View.canon_unit_zero hz]
  simp only [View.ld_unit_zero (S := S5000x16) hz, View.ld_unit_zero (S := S1x16) hz, View.ld_unit_zero (S := S16x1) hz,
    View.ld_unit_zero (S := S1x1) hz]
  obtain ⟨-, -, -, -, -, -, -, -, e8, e9⟩ := idx_facts t
  funext j
  show k2_pay1 (F := Ideal) (iblk2 V c 0 t) (iblk2 V c 1 t) (iblk2 V c 2 t) (iblk2 V c 3 t) j
    = reluRowHead (R := 200000) (K := 16) (N := 1) (V c main_v28) (V c main_v29) (V c main_arg8) (V c main_v30) (((cfg2.win 4).blk t).view.emb j)
  refine (congrFun (stored_eq (iblk2 V c 0 t) (iblk2 V c 1 t) (iblk2 V c 2 t) (iblk2 V c 3 t)) j).trans ?_
  rw [block_b V c t, block_w V c t, block_d V c t]
  refine (reluRowHead_rows (R := 200000) (K := 16) (N := 1) (B := 5000) (rowAt t) (V c main_v28) (V c main_v29) (V c main_arg8) (V c main_v30)
    (iblk2 V c 0 t) (block_a V c t) j).trans
    (congrArg (reluRowHead (R := 200000) (K := 16) (N := 1) (V c main_v28) (V c main_v29) (V c main_arg8) (V c main_v30)) ?_)
  funext a
  apply Fin.ext
  match a with
  | ⟨0, _⟩ => show 5000 * t.val + (j 0).val = win2_4.index t (0 : Fin 2) * 5000 + 1 * (j 0).val; rw [e8]; omega
  | ⟨1, _⟩ => show (j 1).val = win2_4.index t (1 : Fin 2) * 1 + 1 * (j 1).val; rw [e9]; omega

/-- An index of the output array is in point `t`'s block iff each coordinate is in the block's range on its axis. -/
theorem mem_blk (t : Fin cfg2.N) (i : S200000x1.Idx) :
    i ∈ ((cfg2.win 4).blk t).view.set ↔ ∀ a : Fin 2, win2_4.index t a * S5000x1.size a ≤ (i a).val ∧ (i a).val < win2_4.index t a * S5000x1.size a + S5000x1.size a := by
  show i ∈ ((View.whole main_v31).slice (win2_4.rect t)).set ↔ _
  rw [View.set_slice_whole, Rect.mem_set_unit]
  exact Iff.rfl

/-- Every index of the output array is in the block of the point numbered by its row divided by 5000. -/
theorem cover (i : S200000x1.Idx) : ∃ t : Fin cfg2.N, (cfg2.win 4).flush t = true ∧ i ∈ ((cfg2.win 4).blk t).view.set := by
  have hi0 : (i 0).val < 200000 := (i 0).isLt
  have hi1 : (i 1).val < 1 := (i 1).isLt
  have hN : cfg2.N = 40 := N_2
  obtain ⟨t, ht⟩ : ∃ t : Fin cfg2.N, t.val = (i 0).val / 5000 := ⟨⟨(i 0).val / 5000, by rw [hN]; omega⟩, rfl⟩
  obtain ⟨-, -, -, -, -, -, -, -, e8, e9⟩ := idx_facts t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; rw [e8, ht]; omega
  | ⟨1, _⟩ => show win2_4.index t (1 : Fin 2) * 1 ≤ (i 1).val ∧ (i 1).val < win2_4.index t (1 : Fin 2) * 1 + 1; rw [e9]; omega

/-- The output array after the region: the map of the four input arrays as the region finds them. -/
theorem final (c : Dev nD) :
    (dat2 V c).arrAt 4 cfg2.N = head (V c main_v28) (V c main_v29) (V c main_arg8) (V c main_v30) :=
  (dat2 V c).arrAt_eq_of_cover 4 (head (V c main_v28) (V c main_v29) (V c main_arg8) (V c main_v30)) (fun t _ => flushed_eq V c t) cover

end Cert.KernelIdeal.Region2

end
-- ==== Proof.Region0.lean ====
/-
  What the first kernel region leaves in its output array: the product of its two input arrays.

  The region runs over 40 grid points. At point `t` it is handed rows `5000·t … 5000·t + 4999` of the 200000 × 128
  array and the whole 128 × 16 array, multiplies the block by the weights (the formats narrowed on the way into the
  matrix unit, which changes nothing on the extended reals) into a zero accumulator, and writes the 5000 × 16 result
  back as rows `5000·t … 5000·t + 4999` of the output. Rows of a product depend on the same rows of the left operand
  only, so what point `t` writes back is that block of rows of the whole product; the 40 blocks tile the output, so
  the output array ends holding the product. All of this is stated at an arbitrary assignment `V` of contents to the
  buffers at the region's entry.
-/
import proofs.«148713_j62491774157019_2_alg».proof.Proof.Gen.KernelIdeal.Frame
import proofs.«148713_j62491774157019_2_alg».proof.Proof.LibBiasReluRows
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.ValueIdx Idealize.ShloMosaic.PlainProduct Cert.BiasReluRows
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's result as a function of its two input arrays: their product, rows by columns. -/
abbrev product (x : FVec Ideal S200000x128 .f32) (w : FVec Ideal S128x16 .f32) : FVec Ideal S200000x16 .f32 :=
  rowsByCols (M := 200000) (K := 128) (N := 16) x w

/-- The body's dimension numbers are the plain ones: the left operand's columns against the right operand's rows. -/
theorem dims_plain : dot_S5000x128_S128x16_S5000x16_1_0_0_1_n_n = DotDims.plain 5000 128 16 := rfl

/-- What the body stores, from the two blocks it loads: their product. -/
theorem stored_eq (x0 : FVec Ideal S5000x128 .f32) (x1 : FVec Ideal S128x16 .f32) :
    k0_pay1 (F := Ideal) x0 x1 = rowsByCols (M := 5000) (K := 128) (N := 16) x0 x1 := by
  unfold k0_pay1
  rw [dims_plain]
  exact block_product x0 x1 _

/-- The printed index maps, decided over the grid: the row-block index of the left operand and of the output is the
    point's number, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 40 := Nat.lt_of_lt_of_eq t.isLt N_0

/-- Row `r` of point `t`'s block is row `5000·t + r` of the array. -/
def rowAt (t : Fin cfg0.N) (r : Fin 5000) : Fin 200000 := ⟨5000 * t.val + r.val, by have := point_lt t; have := r.isLt; omega⟩

/-- The left operand's block at point `t` holds rows `5000·t + r` of the array. -/
theorem block_x (c : Dev nD) (t : Fin cfg0.N) (r : Fin 5000) (k : Fin 128) :
    (iblk0 V c 0 t : FVec Ideal S5000x128 .f32) (ix2 r k) = (V c main_arg0 : FVec Ideal S200000x128 .f32) (ix2 (rowAt t r) k) := by
  obtain ⟨e0, e1, -, -, -, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

/-- The right operand's block at any point is the whole array. -/
theorem block_w (c : Dev nD) (t : Fin cfg0.N) :
    (iblk0 V c 1 t : FVec Ideal S128x16 .f32) = (V c main_arg4 : FVec Ideal S128x16 .f32) := by
  obtain ⟨-, -, e2, e3, -, -⟩ := idx_facts t
  funext y
  unfold iblk0
  rw [View.read_apply]
  show V c main_arg4 _ = V c main_arg4 _
  refine congrArg (V c main_arg4) ?_
  funext a
  apply Fin.ext
  match a with
  | ⟨0, _⟩ => show win0_1.index t (0 : Fin 2) * 128 + 1 * (y 0).val = (y 0).val; rw [e2]; omega
  | ⟨1, _⟩ => show win0_1.index t (1 : Fin 2) * 16 + 1 * (y 1).val = (y 1).val; rw [e3]; omega

/-- What point `t` writes back is block `t` of the product of the arrays as the region finds them. -/
theorem flushed_eq (c : Dev nD) (t : Fin cfg0.N) :
    (dat0 V c).flushed 2 t = ((cfg0.win 2).blk t).view.read (Elt Ideal) (product (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x16) hz]
  obtain ⟨-, -, -, -, e4, e5⟩ := idx_facts t
  funext j
  show k0_pay1 (F := Ideal) (iblk0 V c 0 t) (iblk0 V c 1 t) j
    = rowsByCols (M := 200000) (K := 128) (N := 16) (V c main_arg0) (V c main_arg4) (((cfg0.win 2).blk t).view.emb j)
  refine (congrFun (stored_eq (iblk0 V c 0 t) (iblk0 V c 1 t)) j).trans ?_
  rw [block_w V c t]
  refine (rowsByCols_rows (M := 200000) (K := 128) (N := 16) (B := 5000) (V c main_arg0) (V c main_arg4) (iblk0 V c 0 t) (rowAt t)
    (block_x V c t) j).trans (congrArg (rowsByCols (M := 200000) (K := 128) (N := 16) (V c main_arg0) (V c main_arg4)) ?_)
  funext a
  apply Fin.ext
  match a with
  | ⟨0, _⟩ => show 5000 * t.val + (j 0).val = win0_2.index t (0 : Fin 2) * 5000 + 1 * (j 0).val; rw [e4]; omega
  | ⟨1, _⟩ => show (j 1).val = win0_2.index t (1 : Fin 2) * 16 + 1 * (j 1).val; rw [e5]; omega

/-- An index of the output array is in point `t`'s block iff each coordinate is in the block's range on its axis. -/
theorem mem_blk (t : Fin cfg0.N) (i : S200000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v0).slice (win0_2.rect t)).set ↔ _
  rw [View.set_slice_whole, Rect.mem_set_unit]
  exact Iff.rfl

/-- Every index of the output array is in the block of the point numbered by its row divided by 5000. -/
theorem cover (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have hN : cfg0.N = 40 := N_0
  obtain ⟨t, ht⟩ : ∃ t : Fin cfg0.N, t.val = (i 0).val / 5000 := ⟨⟨(i 0).val / 5000, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 16 ≤ (i 1).val ∧ (i 1).val < win0_2.index t (1 : Fin 2) * 16 + 16; rw [e5]; omega

/-- The output array after the region: the product of the two input arrays as the region finds them. -/
theorem final (c : Dev nD) : (dat0 V c).arrAt 2 cfg0.N = product (V c main_arg0) (V c main_arg4) :=
  (dat0 V c).arrAt_eq_of_cover 2 (product (V c main_arg0) (V c main_arg4)) (fun t _ => flushed_eq V c t) cover

end Cert.KernelIdeal.Region0

end
-- ==== Proof.Sparse.lean ====
/-
  The sparse step both programs share: gather rows by source, scale by the edge weight, add into rows by target.

  For an array `p` of 200000 rows of 16 entries, source words `src`, target words `dst` and weights `wt`, one per edge
  (6400000 edges): a negative source word is first wrapped by adding 200000; row `e` of the gathered array is the row
  of `p` the wrapped source of edge `e` names; it is multiplied by `wt e`; and the rows so obtained are added into
  an array of zeros at the rows the target words name. Both programs spell this step with the same array operations in
  the same order, so the certificate never opens it: the step is carried as one function of the four arrays, and the
  two programs' results agree as soon as the arrays going in agree.
-/
import proofs.«148713_j62491774157019_2_alg».proof.Proof.Gen.KernelIdeal
import proofs.«148713_j62491774157019_2_alg».proof.Proof.Gen.ReferenceIdeal
import Idealize.ShloMosaic.PureOps.Ideal

noncomputable section

namespace Cert.Sparse

open Idealize.ShloMosaic Cert.KernelIdeal Cert.KernelIdeal.Facts₀

/-- Gather by wrapped source, scale by weight, scatter-add by target, into zeros: the neighbours' weighted sum. -/
def aggregate (p : FVec Ideal S200000x16 .f32) (src dst : IVec S6400000 32) (wt : FVec Ideal S6400000 .f32) :
    FVec Ideal S200000x16 .f32 :=
  Host.scatterAdd scatter_S200000x16_S6400000x1_S6400000x16_1_0_0_1
    (broadcastInDim S200000x16 ![] bcast_S_S200000x16 (constant (F := Ideal) S_ .f32 0x00000000#32))
    (broadcastInDim S6400000x1 ![0] bcast_S6400000_S6400000x1_0 dst)
    (mulf
      (Host.gather gather_S200000x16_S6400000x1_S6400000x16_1_0_n_n_0_1_116 p
        (broadcastInDim S6400000x1 ![0] bcast_S6400000_S6400000x1_0
          (select (cmpi .slt src (broadcastInDim S6400000 ![] bcast_S_S6400000 (constantI S_ 32 0#32)))
            (addi src (broadcastInDim S6400000 ![] bcast_S_S6400000 (constantI S_ 32 200000#32))) src)))
      (broadcastInDim S6400000x16 ![0, 1] bcast_S6400000x1_S6400000x16_0_1
        (broadcastInDim S6400000x1 ![0] bcast_S6400000_S6400000x1_0 wt)))

/-- The reference spells the step with its own copies of the dimension records, which are the same records. -/
theorem aggregate_ref (p : FVec Ideal Cert.ReferenceIdeal.S200000x16 .f32) (src dst : IVec Cert.ReferenceIdeal.S6400000 32)
    (wt : FVec Ideal Cert.ReferenceIdeal.S6400000 .f32) :
    Host.scatterAdd Cert.ReferenceIdeal.scatter_S200000x16_S6400000x1_S6400000x16_1_0_0_1
      (broadcastInDim Cert.ReferenceIdeal.S200000x16 ![] Cert.ReferenceIdeal.Facts₀.bcast_S_S200000x16 (constant (F := Ideal) Cert.ReferenceIdeal.S_ .f32 0x00000000#32))
      (broadcastInDim Cert.ReferenceIdeal.S6400000x1 ![0] Cert.ReferenceIdeal.Facts₀.bcast_S6400000_S6400000x1_0 dst)
      (mulf
        (Host.gather Cert.ReferenceIdeal.gather_S200000x16_S6400000x1_S6400000x16_1_0_n_n_0_1_116 p
          (broadcastInDim Cert.ReferenceIdeal.S6400000x1 ![0] Cert.ReferenceIdeal.Facts₀.bcast_S6400000_S6400000x1_0
            (select (cmpi .slt src (broadcastInDim Cert.ReferenceIdeal.S6400000 ![] Cert.ReferenceIdeal.Facts₀.bcast_S_S6400000 (constantI Cert.ReferenceIdeal.S_ 32 0#32)))
              (addi src (broadcastInDim Cert.ReferenceIdeal.S6400000 ![] Cert.ReferenceIdeal.Facts₀.bcast_S_S6400000 (constantI Cert.ReferenceIdeal.S_ 32 200000#32))) src)))
        (broadcastInDim Cert.ReferenceIdeal.S6400000x16 ![0, 1] Cert.ReferenceIdeal.Facts₀.bcast_S6400000x1_S6400000x16_0_1
          (broadcastInDim Cert.ReferenceIdeal.S6400000x1 ![0] Cert.ReferenceIdeal.Facts₀.bcast_S6400000_S6400000x1_0 wt)))
      = aggregate p src dst wt := rfl

end Cert.Sparse

end
-- ==== Proof.Stretch1.lean ====
/-
  The buffer contents after the first kernel region and after the first stretch of array operations.

  After the first region its output array holds the product of the features with the first weights, and nothing else
  has changed. The stretch that follows computes the sparse step of that product into one array, lays the first bias
  vector out as one row into another, and writes no argument array; so when the second region is entered its three
  input arrays hold the aggregate of the product, the bias row and the second weights, and every argument array still
  holds its launch contents.
-/
import proofs.«148713_j62491774157019_2_alg».proof.Proof.Gen.KernelIdeal.Frame
import proofs.«148713_j62491774157019_2_alg».proof.Proof.Region0
import proofs.«148713_j62491774157019_2_alg».proof.Proof.Sparse
import proofs.«148713_j62491774157019_2_alg».proof.Proof.LibBiasReluRows
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.PlainProduct Cert.BiasReluRows Cert.Sparse

variable (m : (ℓ : Loc nD τ sig) → Buf (Elt Ideal) ℓ) (ρ : Dev nD → PrngReg)

/-- After the first region its output array holds the product of the features with the first weights. -/
theorem W1_v0 (c : Dev nD) :
    W1 m ρ c (Proc.devRef .tc main_v0)
      = rowsByCols (φ₁ := .f32) (φ₂ := .f32) (M := 200000) (K := 128) (N := 16) (m ((c : Thread nD τ).loc main_arg0)) (m ((c : Thread nD τ).loc main_arg4)) :=
  (W1_arr m ρ c 2).trans (Region0.final (V0 m ρ) c)

/-- A buffer that is none of the first region's arrays holds its launch contents after it. -/
theorem W1_rest (c : Dev nD) (b : Ref sig .tc) (hb : ∀ w, Pipeline.arrRef spec0 w ≠ b) :
    W1 m ρ c (Proc.devRef .tc b) = m ((c : Thread nD τ).loc b) :=
  W1_of_ne m ρ c b hb

/-- When the second region is entered, its first input array holds the aggregate of the product. -/
theorem W2_v13 (c : Dev nD) :
    W2 m ρ c (Proc.devRef .tc main_v13)
      = aggregate (rowsByCols (φ₁ := .f32) (φ₂ := .f32) (M := 200000) (K := 128) (N := 16) (m ((c : Thread nD τ).loc main_arg0)) (m ((c : Thread nD τ).loc main_arg4)))
          (m ((c : Thread nD τ).loc main_arg1)) (m ((c : Thread nD τ).loc main_arg2)) (m ((c : Thread nD τ).loc main_arg3)) := by
  show StableHlo.after hostOps1 (W1 m ρ c) (Proc.devRef .tc main_v13) = _
  after_results
  rw [W1_v0 m ρ c, W1_rest m ρ c main_arg1 (by decide), W1_rest m ρ c main_arg2 (by decide), W1_rest m ρ c main_arg3 (by decide)]
  rfl

/-- … its second input array holds the first bias vector as one row, … -/
theorem W2_v14 (c : Dev nD) :
    W2 m ρ c (Proc.devRef .tc main_v14) = rowOf (m ((c : Thread nD τ).loc main_arg5)) := by
  show StableHlo.after hostOps1 (W1 m ρ c) (Proc.devRef .tc main_v14) = _
  after_results
  rw [W1_rest m ρ c main_arg5 (by decide)]
  exact cast_rowOf (m ((c : Thread nD τ).loc main_arg5)) Facts₀.shapeCasts_S16_S1x16

/-- … and each argument array the later segments read still holds its launch contents. -/
theorem W2_arg1 (c : Dev nD) : W2 m ρ c (Proc.devRef .tc main_arg1) = m ((c : Thread nD τ).loc main_arg1) := by
  show StableHlo.after hostOps1 (W1 m ρ c) (Proc.devRef .tc main_arg1) = _
  after_results
  exact W1_rest m ρ c main_arg1 (by decide)
theorem W2_arg2 (c : Dev nD) : W2 m ρ c (Proc.devRef .tc main_arg2) = m ((c : Thread nD τ).loc main_arg2) := by
  show StableHlo.after hostOps1 (W1 m ρ c) (Proc.devRef .tc main_arg2) = _
  after_results
  exact W1_rest m ρ c main_arg2 (by decide)
theorem W2_arg3 (c : Dev nD) : W2 m ρ c (Proc.devRef .tc main_arg3) = m ((c : Thread nD τ).loc main_arg3) := by
  show StableHlo.after hostOps1 (W1 m ρ c) (Proc.devRef .tc main_arg3) = _
  after_results
  exact W1_rest m ρ c main_arg3 (by decide)
theorem W2_arg6 (c : Dev nD) : W2 m ρ c (Proc.devRef .tc main_arg6) = m ((c : Thread nD τ).loc main_arg6) := by
  show StableHlo.after hostOps1 (W1 m ρ c) (Proc.devRef .tc main_arg6) = _
  after_results
  exact W1_rest m ρ c main_arg6 (by decide)
theorem W2_arg7 (c : Dev nD) : W2 m ρ c (Proc.devRef .tc main_arg7) = m ((c : Thread nD τ).loc main_arg7) := by
  show StableHlo.after hostOps1 (W1 m ρ c) (Proc.devRef .tc main_arg7) = _
  after_results
  exact W1_rest m ρ c main_arg7 (by decide)
theorem W2_arg8 (c : Dev nD) : W2 m ρ c (Proc.devRef .tc main_arg8) = m ((c : Thread nD τ).loc main_arg8) := by
  show StableHlo.after hostOps1 (W1 m ρ c) (Proc.devRef .tc main_arg8) = _
  after_results
  exact W1_rest m ρ c main_arg8 (by decide)
theorem W2_arg9 (c : Dev nD) : W2 m ρ c (Proc.devRef .tc main_arg9) = m ((c : Thread nD τ).loc main_arg9) := by
  show StableHlo.after hostOps1 (W1 m ρ c) (Proc.devRef .tc main_arg9) = _
  after_results
  exact W1_rest m ρ c main_arg9 (by decide)

end Cert.KernelIdeal.Chain

end
-- ==== Proof.Spec.lean ====
/-
  The function both programs compute, as one term of the ten argument arrays.

  With `x` the node features, `src`, `dst`, `wt` the edges' sources, targets and weights, `W1`, `b1`, `W2`, `b2` the
  two layers' weights and biases and `Wd`, `bd` the head's:
    `P1 = x · W1`,                         `A1 = aggregate P1 src dst wt`,
    `P2 = max (A1 + b1) 0 · W2`,           `A2 = aggregate P2 src dst wt`,
    `out = max (A2 + b2) 0 · Wd + bd`,
  where `·` is the product rows by columns, a bias vector is added to every row, and `aggregate` is the shared sparse
  step (gather rows by source, scale by weight, add into rows by target).
-/
import proofs.«148713_j62491774157019_2_alg».proof.Proof.Sparse
import proofs.«148713_j62491774157019_2_alg».proof.Proof.LibBiasReluRows

noncomputable section

namespace Cert.Spec

open Idealize.ShloMosaic Idealize.ShloMosaic.PlainProduct Cert.KernelIdeal Cert.BiasReluRows Cert.Sparse

/-- Two graph-convolution layers and a dense head, as one function of the argument arrays. -/
def G (x : FVec Ideal S200000x128 .f32) (src dst : IVec S6400000 32) (wt : FVec Ideal S6400000 .f32)
    (W1 : FVec Ideal S128x16 .f32) (b1 : FVec Ideal S16 .f32) (W2 : FVec Ideal S16x16 .f32) (b2 : FVec Ideal S16 .f32)
    (Wd : FVec Ideal S16x1 .f32) (bd : FVec Ideal S1 .f32) : FVec Ideal S200000x1 .f32 :=
  reluRowHead (R := 200000) (K := 16) (N := 1)
    (aggregate
      (reluRowDense (R := 200000) (K := 16) (N := 16)
        (aggregate (rowsByCols (M := 200000) (K := 128) (N := 16) x W1) src dst wt) (rowOf b1) W2)
      src dst wt)
    (rowOf b2) Wd (rowOf bd)

end Cert.Spec

end
-- ==== Proof.Stretch2.lean ====
/-
  The buffer contents from the second kernel region to the end: the program's result is the specification `G` of the
  launch contents of its argument arrays.

  The second region leaves in its output array the first bias added to every row of the first aggregate, the positive
  part, times the second weights. The stretch of array operations after it computes the sparse step of that array, lays
  the second bias vector out as one row and the head's bias as a 1 × 1 array, and writes no argument array. The third
  region leaves in the result buffer the second bias added to every row of the second aggregate, the positive part,
  times the head's weights, plus the head's bias. Substituting each boundary's contents into the next gives `G`.
-/
import proofs.«148713_j62491774157019_2_alg».proof.Proof.Gen.KernelIdeal.Frame
import proofs.«148713_j62491774157019_2_alg».proof.Proof.Region1
import proofs.«148713_j62491774157019_2_alg».proof.Proof.Region2
import proofs.«148713_j62491774157019_2_alg».proof.Proof.Stretch1
import proofs.«148713_j62491774157019_2_alg».proof.Proof.Spec
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.PlainProduct Cert.BiasReluRows Cert.Sparse

variable (m : (ℓ : Loc nD τ sig) → Buf (Elt Ideal) ℓ) (ρ : Dev nD → PrngReg)

/-- The first aggregate: the sparse step of the product of the features with the first weights. -/
abbrev agg1 (c : Dev nD) : FVec Ideal S200000x16 .f32 :=
  aggregate (rowsByCols (φ₁ := .f32) (φ₂ := .f32) (M := 200000) (K := 128) (N := 16) (m ((c : Thread nD τ).loc main_arg0)) (m ((c : Thread nD τ).loc main_arg4)))
    (m ((c : Thread nD τ).loc main_arg1)) (m ((c : Thread nD τ).loc main_arg2)) (m ((c : Thread nD τ).loc main_arg3))

/-- The second projection: the first bias added to every row of the first aggregate, the positive part, times the
    second weights. -/
abbrev proj2 (c : Dev nD) : FVec Ideal S200000x16 .f32 :=
  reluRowDense (R := 200000) (K := 16) (N := 16) (agg1 m c) (rowOf (m ((c : Thread nD τ).loc main_arg5))) (m ((c : Thread nD τ).loc main_arg6))

/-- The second aggregate: the sparse step of the second projection. -/
abbrev agg2 (c : Dev nD) : FVec Ideal S200000x16 .f32 :=
  aggregate (proj2 m c) (m ((c : Thread nD τ).loc main_arg1)) (m ((c : Thread nD τ).loc main_arg2)) (m ((c : Thread nD τ).loc main_arg3))

/-- After the second region its output array holds the second projection. -/
theorem W3_v15 (c : Dev nD) : W3 m ρ c (Proc.devRef .tc main_v15) = proj2 m c := by
  refine (W3_arr m ρ c 3).trans ((Region1.final (V2 m ρ) c).trans ?_)
  show reluRowDense (R := 200000) (K := 16) (N := 16) (W2 m ρ c (Proc.devRef .tc main_v13)) (W2 m ρ c (Proc.devRef .tc main_v14))
      (W2 m ρ c (Proc.devRef .tc main_arg6)) = _
  rw [W2_v13 m ρ c, W2_v14 m ρ c, W2_arg6 m ρ c]

/-- A buffer that is none of the second region's arrays holds after it what it held before. -/
theorem W3_rest (c : Dev nD) (b : Ref sig .tc) (hb : ∀ w, Pipeline.arrRef spec1 w ≠ b) :
    W3 m ρ c (Proc.devRef .tc b) = W2 m ρ c (Proc.devRef .tc b) :=
  W3_of_ne m ρ c b hb

/-- When the third region is entered, its first input array holds the second aggregate, … -/
theorem W4_v28 (c : Dev nD) : W4 m ρ c (Proc.devRef .tc main_v28) = agg2 m c := by
  show StableHlo.after hostOps2 (W3 m ρ c) (Proc.devRef .tc main_v28) = _
  after_results
  rw [W3_v15 m ρ c, W3_rest m ρ c main_arg1 (by decide), W2_arg1 m ρ c, W3_rest m ρ c main_arg2 (by decide), W2_arg2 m ρ c,
    W3_rest m ρ c main_arg3 (by decide), W2_arg3 m ρ c]
  rfl

/-- … its second the second bias vector as one row, … -/
theorem W4_v29 (c : Dev nD) : W4 m ρ c (Proc.devRef .tc main_v29) = rowOf (m ((c : Thread nD τ).loc main_arg7)) := by
  show StableHlo.after hostOps2 (W3 m ρ c) (Proc.devRef .tc main_v29) = _
  after_results
  rw [W3_rest m ρ c main_arg7 (by decide), W2_arg7 m ρ c]
  exact cast_rowOf (m ((c : Thread nD τ).loc main_arg7)) Facts₀.shapeCasts_S16_S1x16

/-- … its third the head's weights, … -/
theorem W4_arg8 (c : Dev nD) : W4 m ρ c (Proc.devRef .tc main_arg8) = m ((c : Thread nD τ).loc main_arg8) := by
  show StableHlo.after hostOps2 (W3 m ρ c) (Proc.devRef .tc main_arg8) = _
  after_results
  exact (W3_rest m ρ c main_arg8 (by decide)).trans (W2_arg8 m ρ c)

/-- … and its fourth the head's bias as a 1 × 1 array. -/
theorem W4_v30 (c : Dev nD) : W4 m ρ c (Proc.devRef .tc main_v30) = rowOf (m ((c : Thread nD τ).loc main_arg9)) := by
  show StableHlo.after hostOps2 (W3 m ρ c) (Proc.devRef .tc main_v30) = _
  after_results
  rw [W3_rest m ρ c main_arg9 (by decide), W2_arg9 m ρ c]
  exact cast_rowOf (m ((c : Thread nD τ).loc main_arg9)) Facts₀.shapeCasts_S1_S1x1

/-- The result buffer after the last region: the specification of the argument arrays' launch contents. -/
theorem W5_v31 (c : Dev nD) :
    W5 m ρ c (Proc.devRef .tc main_v31)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  refine (W5_arr m ρ c 4).trans ((Region2.final (V4 m ρ) c).trans ?_)
  show reluRowHead (R := 200000) (K := 16) (N := 1) (W4 m ρ c (Proc.devRef .tc main_v28)) (W4 m ρ c (Proc.devRef .tc main_v29))
      (W4 m ρ c (Proc.devRef .tc main_arg8)) (W4 m ρ c (Proc.devRef .tc main_v30)) = _
  rw [W4_v28 m ρ c, W4_v29 m ρ c, W4_arg8 m ρ c, W4_v30 m ρ c]
  rfl

end Cert.KernelIdeal.Chain

end
-- ==== Proof.RefValue.lean ====
/-
  The reference program's result is the specification `G` of its argument arrays.

  The generated read-back names each operation's value as a function of the arguments. Five of them are joined here to
  the specification's maps: the first general dot product is the product rows by columns; each sparse step is the shared
  `aggregate` of the array going in (the operations are the same ones, so this holds by unfolding the names); the
  bias vector laid out as a row and repeated, added, the maximum with zeros and the second dot product are
  `reluRowDense`; the same with the last bias added is `reluRowHead`.
-/
import proofs.«148713_j62491774157019_2_alg».proof.Proof.Gen.ReferenceIdeal.Read
import proofs.«148713_j62491774157019_2_alg».proof.Proof.Spec
import proofs.«148713_j62491774157019_2_alg».proof.Proof.LibBiasReluRows

noncomputable section

namespace Cert.ReferenceIdeal.RefValue

open Cert.ReferenceIdeal Cert.ReferenceIdeal.Read Cert.ReferenceIdeal.Facts₀
open Idealize.ShloMosaic Idealize.ShloMosaic.PlainProduct Cert.BiasReluRows Cert.Sparse

variable (x0 : (⟨S200000x128, .f32⟩ : BufTy).Contents (Elt Ideal)) (x1 x2 : (⟨S6400000, .i32⟩ : BufTy).Contents (Elt Ideal))
  (x3 : (⟨S6400000, .f32⟩ : BufTy).Contents (Elt Ideal)) (x4 : (⟨S128x16, .f32⟩ : BufTy).Contents (Elt Ideal))
  (x5 : (⟨S16, .f32⟩ : BufTy).Contents (Elt Ideal)) (x6 : (⟨S16x16, .f32⟩ : BufTy).Contents (Elt Ideal))
  (x7 : (⟨S16, .f32⟩ : BufTy).Contents (Elt Ideal)) (x8 : (⟨S16x1, .f32⟩ : BufTy).Contents (Elt Ideal))
  (x9 : (⟨S1, .f32⟩ : BufTy).Contents (Elt Ideal))

/-- The three dot products' dimension numbers are the plain ones. -/
theorem dims0 : dot_S200000x128_S128x16_S200000x16_1_0_0_1_n_n = DotDims.plain 200000 128 16 := rfl
theorem dims1 : dot_S200000x16_S16x16_S200000x16_1_0_0_1_n_n = DotDims.plain 200000 16 16 := rfl
theorem dims2 : dot_S200000x16_S16x1_S200000x1_1_0_0_1_n_n = DotDims.plain 200000 16 1 := rfl

/-- The first projection is the product of the features with the first weights. -/
theorem ref_v0 : val_main_v0 (F := Ideal) x0 x4 = rowsByCols (φ₁ := .f32) (φ₂ := .f32) (M := 200000) (K := 128) (N := 16) x0 x4 := by
  unfold val_main_v0
  rw [dims0]
  exact dotGeneral_plain none .single x0 x4

/-- The first sparse step is `aggregate` of the first projection. -/
theorem ref_v13 : val_main_v13 (F := Ideal) x0 x1 x2 x3 x4 = aggregate (val_main_v0 (F := Ideal) x0 x4) x1 x2 x3 := rfl

/-- The second projection: the first bias added to every row of the aggregate, the positive part, times the second weights. -/
theorem ref_v18 : val_main_v18 (F := Ideal) x0 x1 x2 x3 x4 x5 x6
    = reluRowDense (R := 200000) (K := 16) (N := 16) (val_main_v13 (F := Ideal) x0 x1 x2 x3 x4) (rowOf x5) x6 := by
  unfold val_main_v18 val_main_v17 val_main_call0_v0 val_main_call0_cst val_main_v16 val_main_v15 val_main_v14
  rw [dims1, bcast_rowOf]
  exact host_reluRowDense _ _ _ _ _

/-- The second sparse step is `aggregate` of the second projection. -/
theorem ref_v31 : val_main_v31 (F := Ideal) x0 x1 x2 x3 x4 x5 x6 = aggregate (val_main_v18 (F := Ideal) x0 x1 x2 x3 x4 x5 x6) x1 x2 x3 := rfl

/-- The head: the second bias added to every row of the second aggregate, the positive part, times the head's weights,
    plus the head's bias. -/
theorem ref_v39 : val_main_v39 (F := Ideal) x0 x1 x2 x3 x4 x5 x6 x7 x8 x9
    = reluRowHead (R := 200000) (K := 16) (N := 1) (val_main_v31 (F := Ideal) x0 x1 x2 x3 x4 x5 x6) (rowOf x7) x8 (rowOf x9) := by
  unfold val_main_v39 val_main_v38 val_main_v37 val_main_v36 val_main_v35 val_main_call1_v0 val_main_call1_cst val_main_v34 val_main_v33 val_main_v32
  rw [dims2, bcast_rowOf, bcast_rowOf]
  exact host_reluRowHead _ _ _ _ _ _ _

/-- The reference's result is the specification of its arguments. -/
theorem result_eq : val_main_v39 (F := Ideal) x0 x1 x2 x3 x4 x5 x6 x7 x8 x9 = Cert.Spec.G x0 x1 x2 x3 x4 x5 x6 x7 x8 x9 := by
  rw [ref_v39, ref_v31, ref_v18, ref_v13, ref_v0]
  rfl

end Cert.ReferenceIdeal.RefValue

end
-- ==== Proof.lean ====
/-
  Two graph-convolution layers and a dense head, computed by three tiled kernels with the sparse aggregation between
  them, against the same network written with whole-array operations: equal as extended reals.

  Both programs compute, from node features `x`, edges `(src, dst, wt)`, and the weights and biases,
    `P1 = x · W1`, `A1 = aggregate P1`, `P2 = max (A1 + b1) 0 · W2`, `A2 = aggregate P2`, `out = max (A2 + b2) 0 · Wd + bd`.
  The kernel program computes each dense map one block of 5000 rows at a time, 40 blocks; every one of these maps reads
  row `r` of its row-indexed operand only, so the blocks are the rows of the whole map and tile the output. The sparse
  step is spelt by the same array operations in both programs and is carried as one function. The matrix unit's product
  into a zero accumulator and the general dot product are the same finite sum; the narrowing of a format on the way into
  the matrix unit is the identity on the extended reals. No sum is rearranged against a product, so the precondition
  that the inputs are finite is never opened. The ideal pass rewrote nothing, so the idealized kernel is the kernel's
  own text and that conjunct is trivial.
-/
import proofs.«148713_j62491774157019_2_alg».proof.Defs
import proofs.«148713_j62491774157019_2_alg».proof.Proof.Gen.Kernel
import proofs.«148713_j62491774157019_2_alg».proof.Proof.Gen.Kernel.Skeleton
import proofs.«148713_j62491774157019_2_alg».proof.Proof.Gen.Kernel.Launch
import proofs.«148713_j62491774157019_2_alg».proof.Proof.Gen.Kernel.Points
import proofs.«148713_j62491774157019_2_alg».proof.Proof.Gen.Kernel.Frame
import proofs.«148713_j62491774157019_2_alg».proof.Proof.Gen.KernelIdeal
import proofs.«148713_j62491774157019_2_alg».proof.Proof.Gen.KernelIdeal.Skeleton
import proofs.«148713_j62491774157019_2_alg».proof.Proof.Gen.KernelIdeal.Launch
import proofs.«148713_j62491774157019_2_alg».proof.Proof.Gen.KernelIdeal.Points
import proofs.«148713_j62491774157019_2_alg».proof.Proof.Gen.KernelIdeal.Frame
import proofs.«148713_j62491774157019_2_alg».proof.Proof.Gen.ReferenceIdeal
import proofs.«148713_j62491774157019_2_alg».proof.Proof.Gen.Pre_finite_inputs
import proofs.«148713_j62491774157019_2_alg».proof.Proof.Gen.ReferenceIdeal.Run
import proofs.«148713_j62491774157019_2_alg».proof.Proof.Gen.ReferenceIdeal.Read
import proofs.«148713_j62491774157019_2_alg».proof.Proof.KernelRun
import proofs.«148713_j62491774157019_2_alg».proof.Proof.Stretch2
import proofs.«148713_j62491774157019_2_alg».proof.Proof.RefValue
import Idealize.ShloMosaic.Adequacy
import Idealize.ShloMosaic.Init

noncomputable section

namespace Cert.Proof

open Idealize.ShloMosaic Idealize.ShloMosaic.TcCoe Idealize.SL.Sem

/-- The three programs run, fault nowhere and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the specification `G` of the arguments in their
    result buffers: the kernel program by the chain of its three regions and two stretches, the reference by its
    read-back. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.W5_v31 m ρ c), (h c).2⟩) (Cert.KernelIdeal.Result.run m ρ)
  · refine (θ_run Cert.ReferenceIdeal.defs _ _).mono (fun _ h c => ⟨?_, (h c).2⟩)
      (Cert.ReferenceIdeal.Value.run (F := Ideal) m' ρ')
    have hv := (h c).1
    rw [Cert.ReferenceIdeal.Read.val_main_v39_eq, Cert.ReferenceIdeal.RefValue.result_eq] at hv
    obtain ⟨e0, e1, e2, e3, e4, e5, e6, e7, e8, e9⟩ := hagree c
    rw [e0, e1, e2, e3, e4, e5, e6, e7, e8, e9] at hv
    exact hv

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
